-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S200x64 : Shape := ⟨2, ![200, 64]⟩
abbrev S256x64 : Shape := ⟨2, ![256, 64]⟩
abbrev S64x64 : Shape := ⟨2, ![64, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S200x64 : S_.BroadcastsInDim S200x64 (![] : Fin 0 → Fin S200x64.rank)
  reducesTo_S200x64_S_d0_1 : S200x64.ReducesTo [0, 1] S_
  bcast_S_S256x64 : S_.BroadcastsInDim S256x64 (![] : Fin 0 → Fin S256x64.rank)
  reducesTo_S256x64_S_d0_1 : S256x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S50000x64 .f32) (main_arg1 : FVec F S200x64 .f32) (main_arg2 : FVec F S256x64 .f32) (main_arg3 : FVec F S64x64 .f32) (main_arg4 : IVec S800000 32) (main_arg5 : IVec S800000 32) (main_arg6 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S200x64 .f32 := Host.absf main_arg1
  let main_cst_0 : FVec F S_ .f32 := constant S_ .f32 0x7F800000#32
  let main_v5 : FVec F S200x64 .f32 := broadcastInDim S200x64 ![] bcast_S_S200x64 main_cst_0
  let main_v6 : IVec S200x64 1 := cmpf .olt main_v4 main_v5
  let main_c_1 : IVec S_ 1 := constantI S_ 1 1#1
  let main_v7 : IVec S_ 1 := (fun x v => Host.reduce IntOp.andi x v reducesTo_S200x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S50000x64 : Shape := ⟨2, ![50000, 64]⟩
abbrev S200x64 : Shape := ⟨2, ![200, 64]⟩
abbrev S256x64 : Shape := ⟨2, ![256, 64]⟩
abbrev S64x64 : Shape := ⟨2, ![64, 64]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S4000x64 : Shape := ⟨2, ![4000, 64]⟩
abbrev S50000 : Shape := ⟨1, ![50000]⟩
abbrev S50000x1 : Shape := ⟨2, ![50000, 1]⟩
abbrev S5000x64 : Shape := ⟨2, ![5000, 64]⟩

abbrev nBuf : Space → Nat
  | .hbm => 48
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S200x64, .f32⟩
  | .hbm, ⟨2, _⟩ => ⟨S256x64, .f32⟩
  | .hbm, ⟨3, _⟩ => ⟨S64x64, .f32⟩
  | .hbm, ⟨4, _⟩ => ⟨S800000, .i32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S_, .f32⟩
  | .hbm, ⟨35, _⟩ => ⟨S800000, .f32⟩
  | .hbm, ⟨36, _⟩ => ⟨S_, .f32⟩
  | .hbm, ⟨37, _⟩ => ⟨S50000, .f32⟩
  | .hbm, ⟨38, _⟩ => ⟨S800000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S50000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S4000x64, .f32⟩
  | .local _ .vmem, ⟨9, _⟩ => ⟨S4000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S256x64_S64x64_0_0 : S256x64.Slices ![0, 0] S64x64
  slices_S256x64_S64x64_64_0 : S256x64.Slices ![64, 0] S64x64
  slices_S256x64_S64x64_128_0 : S256x64.Slices ![128, 0] S64x64
  slices_S256x64_S64x64_192_0 : S256x64.Slices ![192, 0] S64x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  gather_S50000x64_S800000x1_S800000x64_1_0_n_n_0_1_164_wf : GatherDims.WF S50000x64 S800000x1 S800000x64 [1] [0] [] [0] [] 1 ![1, 64]
  gather_S200x64_S800000x1_S800000x64_1_0_n_n_0_1_164_wf : GatherDims.WF S200x64 S800000x1 S800000x64 [1] [0] [] [0] [] 1 ![1, 64]
  dot_S4000x64_S64x64_S4000x64_1_0_0_1_n_n_wf : DotDims.WF S4000x64 S64x64 S4000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S800000x64.size a
  hwx0_6 : ∀ i : grid0.Coords, EltTy.bits .f32 = 32 ∨ (Rect.block (s := S800000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S200x64_S800000x1_S800000x64_1_0_n_n_0_1_164 : GatherDims S200x64 S800000x1 S800000x64 where
  offsetDims := [1]
  collapsedSliceDims := [0]
  operandBatchingDims := []
  startIndicesBatchingDims := []
  startIndexMap := [0]
  indexVectorDim := 1
  sliceSizes := ![1, 64]
  wf := gather_S200x64_S800000x1_S800000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v6) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x64 : Shape := ⟨2, ![50000, 64]⟩
abbrev S200x64 : Shape := ⟨2, ![200, 64]⟩
abbrev S256x64 : Shape := ⟨2, ![256, 64]⟩
abbrev S64x64 : Shape := ⟨2, ![64, 64]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x256 : Shape := ⟨2, ![800000, 256]⟩
abbrev S50000 : Shape := ⟨1, ![50000]⟩
abbrev S50000x1 : Shape := ⟨2, ![50000, 1]⟩

abbrev nBuf : Space → Nat
  | .hbm => 47
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S200x64, .f32⟩
  | .hbm, ⟨2, _⟩ => ⟨S256x64, .f32⟩
  | .hbm, ⟨3, _⟩ => ⟨S64x64, .f32⟩
  | .hbm, ⟨4, _⟩ => ⟨S800000, .i32⟩
  | .hbm, ⟨5, _⟩ => ⟨S800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S800000x64, .f32⟩
  | .hbm, ⟨26, _⟩ => ⟨S800000x64, .f32⟩
  | .hbm, ⟨27, _⟩ => ⟨S800000x256, .f32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S_, .f32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x64_S800000x256_d1 : Shape.Concatenates [S800000x64, S800000x64, S800000x64, S800000x64] S800000x256 1
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  gather_S200x64_S800000x1_S800000x64_1_0_n_n_0_1_164_wf : GatherDims.WF S200x64 S800000x1 S800000x64 [1] [0] [] [0] [] 1 ![1, 64]
  dot_S800000x256_S256x64_S800000x64_1_0_0_1_n_n_wf : DotDims.WF S800000x256 S256x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S200x64_S800000x1_S800000x64_1_0_n_n_0_1_164 : GatherDims S200x64 S800000x1 S800000x64 where
  offsetDims := [1]
  collapsedSliceDims := [0]
  operandBatchingDims := []
  startIndicesBatchingDims := []
  startIndexMap := [0]
  indexVectorDim := 1
  sliceSizes := ![1, 64]
  wf := gather_S200x64_S800000x1_S800000x64_1_0_n_n_0_1_164_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel program's run, with every buffer it leaves read back.

  The program is five segments: host operations, the message region, host operations, the self-loop region, one last
  host operation.  The generated frame module names the buffer contents at every segment boundary; the last of them,
  `W5`, is what the final host operation leaves.  Every weakly fair execution terminates, and in the final state every
  buffer that outlives the regions holds its `W5` contents — the arguments (which nothing writes) and the result alike.
-/
import proofs.«108245_j10385230921813_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer that is not a region's
    scratch ends at the contents the last segment boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The result buffer and the seven arguments, read out of `run_all`. -/
theorem run_result : θ_run defs (onTc (τ := τ) (main (F := F))) ⟨m, fun _ => 0, ρ⟩ (fun r => ∀ c : Dev nD,
      r.2.mem ((c.tc : Thread nD τ).loc main_v32) = W5 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v32 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩)
    (run_all m ρ)

end Cert.KernelIdeal.Hand

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.Spec.lean ====
/-
  The two dense maps of a relational graph convolution, entry by entry over the extended reals.

  For edge features `H` and relation features `R` (one row of 64 numbers per edge) and four 64 × 64 weight
  matrices, an edge's message is
      (H + R) · W0 + (H ∘ R) · W1 + H · W2 + R · W3,
  each product the row of that edge against a weight matrix, `∘` the entrywise product; the terms are added in
  this order.  A node's self-loop term is its feature row against one 64 × 64 matrix.  Both are stated here for any
  number of rows, so that one definition serves a whole array and any block of its rows.
-/
import Idealize.ShloMosaic.Lib.ValueIdx
import Idealize.ShloMosaic.PureOps.Ideal

noncomputable section

open scoped BigOperators

namespace Cert.RelGraph

open Idealize.ShloMosaic Idealize.ShloMosaic.ValueIdx

variable {n : ℕ}

/-- Entry `(e, c)` of the message array: the four row-by-matrix products of edge `e`, summed left to right. -/
def msgAt (H R : FVec Ideal ⟨2, ![n, 64]⟩ .f32) (W0 W1 W2 W3 : FVec Ideal ⟨2, ![64, 64]⟩ .f32)
    (e : Fin n) (c : Fin 64) : EReal :=
  ((∑ k : Fin 64, (H (ix2 e k) + R (ix2 e k)) * W0 (ix2 k c)
      + ∑ k : Fin 64, (H (ix2 e k) * R (ix2 e k)) * W1 (ix2 k c))
      + ∑ k : Fin 64, H (ix2 e k) * W2 (ix2 k c))
      + ∑ k : Fin 64, R (ix2 e k) * W3 (ix2 k c)

/-- The message array. -/
def msgArr (H R : FVec Ideal ⟨2, ![n, 64]⟩ .f32) (W0 W1 W2 W3 : FVec Ideal ⟨2, ![64, 64]⟩ .f32) :
    FVec Ideal ⟨2, ![n, 64]⟩ .f32 :=
  fun i => msgAt H R W0 W1 W2 W3 ⟨(i 0).val, idx2_lt0 i⟩ ⟨(i 1).val, idx2_lt1 i⟩

theorem msgArr_apply (H R : FVec Ideal ⟨2, ![n, 64]⟩ .f32) (W0 W1 W2 W3 : FVec Ideal ⟨2, ![64, 64]⟩ .f32)
    (e : Fin n) (c : Fin 64) : msgArr H R W0 W1 W2 W3 (ix2 e c) = msgAt H R W0 W1 W2 W3 e c := rfl

/-- Entry `(e, c)` of the self-loop array: row `e` of the features against column `c` of the matrix. -/
def loopAt (X : FVec Ideal ⟨2, ![n, 64]⟩ .f32) (W : FVec Ideal ⟨2, ![64, 64]⟩ .f32) (e : Fin n) (c : Fin 64) : EReal :=
  ∑ k : Fin 64, X (ix2 e k) * W (ix2 k c)

/-- The self-loop array. -/
def loopArr (X : FVec Ideal ⟨2, ![n, 64]⟩ .f32) (W : FVec Ideal ⟨2, ![64, 64]⟩ .f32) : FVec Ideal ⟨2, ![n, 64]⟩ .f32 :=
  fun i => loopAt X W ⟨(i 0).val, idx2_lt0 i⟩ ⟨(i 1).val, idx2_lt1 i⟩

theorem loopArr_apply (X : FVec Ideal ⟨2, ![n, 64]⟩ .f32) (W : FVec Ideal ⟨2, ![64, 64]⟩ .f32)
    (e : Fin n) (c : Fin 64) : loopArr X W (ix2 e c) = loopAt X W e c := rfl

end Cert.RelGraph

end
-- ==== Proof.Payload.lean ====
/-
  The two kernel bodies, entry by entry at the exact extended reals.

  The message body loads a block of edge features `x0`, the matching block of relation features `x1` and four
  64 × 64 weight matrices; it forms `x0 + x1` and `x0 ∘ x1`, multiplies the four 4000 × 64 matrices
  `x0 + x1`, `x0 ∘ x1`, `x0`, `x1` each with its weight matrix on the matrix unit (from a zero accumulator) and adds
  the four products left to right.  Changing the number format on the way into the matrix unit is the identity on
  exact values and a cast to the same shape moves nothing, so entry `(p, c)` of what it stores is the message entry
  of the block.  The self-loop body stores one such product.
-/
import proofs.«108245_j10385230921813_1_alg».proof.Proof.Gen.KernelIdeal.Skeleton
import proofs.«108245_j10385230921813_1_alg».proof.Proof.LibDense
import proofs.«108245_j10385230921813_1_alg».proof.Proof.Spec
import Idealize.ShloMosaic.Lib.Pipeline.Value

noncomputable section

open scoped BigOperators

namespace Cert.KernelIdeal.Body

open Idealize.ShloMosaic Idealize.ShloMosaic.ValueIdx Cert.KernelIdeal Cert.KernelIdeal.Gen Cert.RelGraph

/-! ## The two matrix products' dimension records: rows × inner against inner × columns -/

abbrev D0 := dot_S4000x64_S64x64_S4000x64_1_0_0_1_n_n
abbrev D1 := dot_S5000x64_S64x64_S5000x64_1_0_0_1_n_n

theorem D0_l0 (i : S4000x64.Idx) (q : D0.contr.Idx) : (D0.lhsIdx i q 0).val = (i 0).val := by
  unfold DotDims.lhsIdx
  rw [dif_neg (show ¬(0 : Fin S4000x64.rank) ∈ D0.lhsBatch by decide), dif_pos (show (0 : Fin S4000x64.rank) ∈ D0.lhsNonContracting by decide)]
  rfl
theorem D0_l1 (i : S4000x64.Idx) (q : D0.contr.Idx) : (D0.lhsIdx i q 1).val = (q ⟨0, by decide⟩).val :=
  D0.lhsIdx_val_of_single rfl i q
theorem D0_r0 (i : S4000x64.Idx) (q : D0.contr.Idx) : (D0.rhsIdx i q 0).val = (q ⟨0, by decide⟩).val :=
  D0.rhsIdx_val_of_single rfl i q
theorem D0_r1 (i : S4000x64.Idx) (q : D0.contr.Idx) : (D0.rhsIdx i q 1).val = (i 1).val := by
  unfold DotDims.rhsIdx
  rw [dif_neg (show ¬(1 : Fin S64x64.rank) ∈ D0.rhsBatch by decide), dif_pos (show (1 : Fin S64x64.rank) ∈ D0.rhsNonContracting by decide)]
  rfl

theorem D1_l0 (i : S5000x64.Idx) (q : D1.contr.Idx) : (D1.lhsIdx i q 0).val = (i 0).val := by
  unfold DotDims.lhsIdx
  rw [dif_neg (show ¬(0 : Fin S5000x64.rank) ∈ D1.lhsBatch by decide), dif_pos (show (0 : Fin S5000x64.rank) ∈ D1.lhsNonContracting by decide)]
  rfl
theorem D1_l1 (i : S5000x64.Idx) (q : D1.contr.Idx) : (D1.lhsIdx i q 1).val = (q ⟨0, by decide⟩).val :=
  D1.lhsIdx_val_of_single rfl i q
theorem D1_r0 (i : S5000x64.Idx) (q : D1.contr.Idx) : (D1.rhsIdx i q 0).val = (q ⟨0, by decide⟩).val :=
  D1.rhsIdx_val_of_single rfl i q
theorem D1_r1 (i : S5000x64.Idx) (q : D1.contr.Idx) : (D1.rhsIdx i q 1).val = (i 1).val := by
  unfold DotDims.rhsIdx
  rw [dif_neg (show ¬(1 : Fin S64x64.rank) ∈ D1.rhsBatch by decide), dif_pos (show (1 : Fin S64x64.rank) ∈ D1.rhsNonContracting by decide)]
  rfl

/-- A 4000 × 64 by 64 × 64 product from zero, at entry `(p, c)`. -/
theorem mm0 {φ₁ φ₂ : FTy} (lhs : FVec Ideal S4000x64 φ₁) (rhs : FVec Ideal S64x64 φ₂) (p : Fin 4000) (c : Fin 64) :
    matmul D0 none lhs rhs (constant (F := Ideal) S4000x64 .f32 0x00000000#32) (ix2 p c)
      = ∑ q : Fin 64, lhs (ix2 p q) * rhs (ix2 q c) :=
  Cert.LibDense.matmul_zero_apply D0 rfl rfl D0_l0 D0_l1 D0_r0 D0_r1 none lhs rhs p c

/-- A 5000 × 64 by 64 × 64 product from zero, at entry `(p, c)`. -/
theorem mm1 {φ₁ φ₂ : FTy} (lhs : FVec Ideal S5000x64 φ₁) (rhs : FVec Ideal S64x64 φ₂) (p : Fin 5000) (c : Fin 64) :
    matmul D1 none lhs rhs (constant (F := Ideal) S5000x64 .f32 0x00000000#32) (ix2 p c)
      = ∑ q : Fin 64, lhs (ix2 p q) * rhs (ix2 q c) :=
  Cert.LibDense.matmul_zero_apply D1 rfl rfl D1_l0 D1_l1 D1_r0 D1_r1 none lhs rhs p c

/-- What the message body stores, at entry `(p, c)` of its block: the message entry of the loaded blocks. -/
theorem message_payload (x0 x1 : Vec Ideal S4000x64 .f32) (x2 x3 x4 x5 : Vec Ideal S64x64 .f32) (p : Fin 4000) (c : Fin 64) :
    k0_pay1 (F := Ideal) x0 x1 x2 x3 x4 x5 (ix2 p c) = msgAt x0 x1 x2 x3 x4 x5 p c := by
  unfold k0_pay1 msgAt
  simp only [shapeCast_self]
  rw [addf_apply, addf_apply, addf_apply, mm0, mm0, mm0, mm0]
  rfl

/-- What the self-loop body stores, at entry `(p, c)` of its block. -/
theorem loop_payload (x0 : Vec Ideal S5000x64 .f32) (x1 : Vec Ideal S64x64 .f32) (p : Fin 5000) (c : Fin 64) :
    k1_pay1 (F := Ideal) x0 x1 (ix2 p c) = loopAt x0 x1 p c := by
  unfold k1_pay1 loopAt
  rw [mm1]
  rfl

end Cert.KernelIdeal.Body

end
-- ==== Proof.Blocks.lean ====
/-
  Each kernel region's output array as one function of the arrays the region finds, at the exact extended reals.

  The message region walks 200 points; point `t` loads rows `4000·t … 4000·t + 3999` of the edge features and of
  the relation features, the four weight matrices whole, and writes back rows `4000·t …` of the result.  The rows a
  point writes are the message entries of the rows it loaded, and the 200 row blocks tile the 800000 rows: the result
  array ends as the message array of the whole inputs.  The self-loop region does the same with 10 blocks of 5000 rows.
-/
import proofs.«108245_j10385230921813_1_alg».proof.Proof.Gen.KernelIdeal.Frame
import proofs.«108245_j10385230921813_1_alg».proof.Proof.Payload
import Idealize.ShloMosaic.Lib.Pipeline.Value

set_option maxRecDepth 16384

noncomputable section

open scoped BigOperators

namespace Cert.RelGraph

open Idealize.ShloMosaic Idealize.ShloMosaic.ValueIdx

variable {n n' : ℕ}

/-- A message entry depends only on the edge's two rows and on one column of each weight matrix. -/
theorem msgAt_congr (H R : FVec Ideal ⟨2, ![n, 64]⟩ .f32) (H' R' : FVec Ideal ⟨2, ![n', 64]⟩ .f32)
    (W0 W1 W2 W3 W0' W1' W2' W3' : FVec Ideal ⟨2, ![64, 64]⟩ .f32) (p : Fin n) (e : Fin n') (c : Fin 64)
    (hH : ∀ k : Fin 64, H (ix2 p k) = H' (ix2 e k)) (hR : ∀ k : Fin 64, R (ix2 p k) = R' (ix2 e k))
    (h0 : ∀ k : Fin 64, W0 (ix2 k c) = W0' (ix2 k c)) (h1 : ∀ k : Fin 64, W1 (ix2 k c) = W1' (ix2 k c))
    (h2 : ∀ k : Fin 64, W2 (ix2 k c) = W2' (ix2 k c)) (h3 : ∀ k : Fin 64, W3 (ix2 k c) = W3' (ix2 k c)) :
    msgAt H R W0 W1 W2 W3 p c = msgAt H' R' W0' W1' W2' W3' e c := by
  unfold msgAt
  simp only [hH, hR, h0, h1, h2, h3]

/-- A self-loop entry depends only on the node's row and on one column of the matrix. -/
theorem loopAt_congr (X : FVec Ideal ⟨2, ![n, 64]⟩ .f32) (X' : FVec Ideal ⟨2, ![n', 64]⟩ .f32)
    (W W' : FVec Ideal ⟨2, ![64, 64]⟩ .f32) (p : Fin n) (e : Fin n') (c : Fin 64)
    (hX : ∀ k : Fin 64, X (ix2 p k) = X' (ix2 e k)) (hW : ∀ k : Fin 64, W (ix2 k c) = W' (ix2 k c)) :
    loopAt X W p c = loopAt X' W' e c := by
  unfold loopAt
  simp only [hX, hW]

end Cert.RelGraph

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Body Cert.RelGraph

variable (V : (c : Dev nD) → (b : Ref sig .tc) → Buf (Elt Ideal) ((c : Thread nD τ).loc b))

theorem hz : (![0, 0] : Fin 2 → Nat) = fun _ => 0 := funext fun a => by fin_cases a <;> rfl

/-! ## The message region -/

/-- The printed index maps over the grid: the two row-blocked inputs and the output sit at block `(t, 0)`, the four
    weight matrices at block `(0, 0)`. -/
theorem index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem row_lt0 (t : Fin cfg0.N) (p : Fin 4000) : t.val * 4000 + p.val < 800000 := by
  have hN : cfg0.N = 200 := N_0
  have := t.isLt; have := p.isLt; omega

/-- Point `t`'s block of the edge features is their rows from `4000·t`. -/
theorem edge_rows (c : Dev nD) (t : Fin cfg0.N) (p : Fin 4000) (k : Fin 64) :
    (iblk0 V c 0 t : Vec Ideal S4000x64 .f32) (ix2 p k)
      = (V c main_v6 : S800000x64.Idx → EReal) (ix2 ⟨t.val * 4000 + p.val, row_lt0 t p⟩ k) := by
  show (V c main_v6 : S800000x64.Idx → EReal) (((cfg0.win 0).blk t).view.emb (ix2 p k)) = _
  refine congrArg (V c main_v6 : S800000x64.Idx → EReal) (funext fun a => Fin.ext ?_)
  obtain ⟨e0, e1, -⟩ := index0 t
  match a with
  | ⟨0, _⟩ => show win0_0.index t (0 : Fin 2) * 4000 + 1 * p.val = t.val * 4000 + p.val; rw [e0]; omega
  | ⟨1, _⟩ => show win0_0.index t (1 : Fin 2) * 64 + 1 * k.val = k.val; rw [e1]; omega

/-- Point `t`'s block of the relation features is their rows from `4000·t`. -/
theorem rel_rows (c : Dev nD) (t : Fin cfg0.N) (p : Fin 4000) (k : Fin 64) :
    (iblk0 V c 1 t : Vec Ideal S4000x64 .f32) (ix2 p k)
      = (V c main_v13 : S800000x64.Idx → EReal) (ix2 ⟨t.val * 4000 + p.val, row_lt0 t p⟩ k) := by
  show (V c main_v13 : S800000x64.Idx → EReal) (((cfg0.win 1).blk t).view.emb (ix2 p k)) = _
  refine congrArg (V c main_v13 : S800000x64.Idx → EReal) (funext fun a => Fin.ext ?_)
  obtain ⟨-, -, e0, e1, -⟩ := index0 t
  match a with
  | ⟨0, _⟩ => show win0_1.index t (0 : Fin 2) * 4000 + 1 * p.val = t.val * 4000 + p.val; rw [e0]; omega
  | ⟨1, _⟩ => show win0_1.index t (1 : Fin 2) * 64 + 1 * k.val = k.val; rw [e1]; omega

/-- Every point's block of a weight matrix is the matrix. -/
theorem weight0 (c : Dev nD) (t : Fin cfg0.N) (k q : Fin 64) :
    (iblk0 V c 2 t : Vec Ideal S64x64 .f32) (ix2 k q) = (V c main_v14 : S64x64.Idx → EReal) (ix2 k q) := by
  show (V c main_v14 : S64x64.Idx → EReal) (((cfg0.win 2).blk t).view.emb (ix2 k q)) = _
  refine congrArg (V c main_v14 : S64x64.Idx → EReal) (funext fun a => Fin.ext ?_)
  obtain ⟨-, -, -, -, e0, e1, -⟩ := index0 t
  match a with
  | ⟨0, _⟩ => show win0_2.index t (0 : Fin 2) * 64 + 1 * k.val = k.val; rw [e0]; omega
  | ⟨1, _⟩ => show win0_2.index t (1 : Fin 2) * 64 + 1 * q.val = q.val; rw [e1]; omega
theorem weight1 (c : Dev nD) (t : Fin cfg0.N) (k q : Fin 64) :
    (iblk0 V c 3 t : Vec Ideal S64x64 .f32) (ix2 k q) = (V c main_v15 : S64x64.Idx → EReal) (ix2 k q) := by
  show (V c main_v15 : S64x64.Idx → EReal) (((cfg0.win 3).blk t).view.emb (ix2 k q)) = _
  refine congrArg (V c main_v15 : S64x64.Idx → EReal) (funext fun a => Fin.ext ?_)
  obtain ⟨-, -, -, -, -, -, e0, e1, -⟩ := index0 t
  match a with
  | ⟨0, _⟩ => show win0_3.index t (0 : Fin 2) * 64 + 1 * k.val = k.val; rw [e0]; omega
  | ⟨1, _⟩ => show win0_3.index t (1 : Fin 2) * 64 + 1 * q.val = q.val; rw [e1]; omega
theorem weight2 (c : Dev nD) (t : Fin cfg0.N) (k q : Fin 64) :
    (iblk0 V c 4 t : Vec Ideal S64x64 .f32) (ix2 k q) = (V c main_v16 : S64x64.Idx → EReal) (ix2 k q) := by
  show (V c main_v16 : S64x64.Idx → EReal) (((cfg0.win 4).blk t).view.emb (ix2 k q)) = _
  refine congrArg (V c main_v16 : S64x64.Idx → EReal) (funext fun a => Fin.ext ?_)
  obtain ⟨-, -, -, -, -, -, -, -, e0, e1, -⟩ := index0 t
  match a with
  | ⟨0, _⟩ => show win0_4.index t (0 : Fin 2) * 64 + 1 * k.val = k.val; rw [e0]; omega
  | ⟨1, _⟩ => show win0_4.index t (1 : Fin 2) * 64 + 1 * q.val = q.val; rw [e1]; omega
theorem weight3 (c : Dev nD) (t : Fin cfg0.N) (k q : Fin 64) :
    (iblk0 V c 5 t : Vec Ideal S64x64 .f32) (ix2 k q) = (V c main_v17 : S64x64.Idx → EReal) (ix2 k q) := by
  show (V c main_v17 : S64x64.Idx → EReal) (((cfg0.win 5).blk t).view.emb (ix2 k q)) = _
  refine congrArg (V c main_v17 : S64x64.Idx → EReal) (funext fun a => Fin.ext ?_)
  obtain ⟨-, -, -, -, -, -, -, -, -, -, e0, e1, -⟩ := index0 t
  match a with
  | ⟨0, _⟩ => show win0_5.index t (0 : Fin 2) * 64 + 1 * k.val = k.val; rw [e0]; omega
  | ⟨1, _⟩ => show win0_5.index t (1 : Fin 2) * 64 + 1 * q.val = q.val; rw [e1]; omega

/-- The message array of the arrays the region finds. -/
abbrev messages (c : Dev nD) : FVec Ideal S800000x64 .f32 :=
  msgArr (V c main_v6 : S800000x64.Idx → EReal) (V c main_v13 : S800000x64.Idx → EReal)
    (V c main_v14 : S64x64.Idx → EReal) (V c main_v15 : S64x64.Idx → EReal)
    (V c main_v16 : S64x64.Idx → EReal) (V c main_v17 : S64x64.Idx → EReal)

/-- What point `t` writes back is its row block of the message array. -/
theorem message_block (c : Dev nD) (t : Fin cfg0.N) :
    (dat0 V c).flushed 6 t = ((cfg0.win 6).blk t).view.read (Elt Ideal) (messages V c) := by
  show (cfg0.win 6).cut (grid0.coords t) ((dat0 V c).after 6 t) = _
  rw [after0_6]
  unfold out0_6
  rw [View.canon_unit_zero hz]
  simp only [View.ld_unit_zero (S := S4000x64) hz, View.ld_unit_zero (S := S64x64) hz]
  funext j
  obtain ⟨p, q, rfl⟩ : ∃ (p : Fin 4000) (q : Fin 64), j = ix2 p q := ⟨j 0, j 1, eq_ix2 j⟩
  have hemb : ((cfg0.win 6).blk t).view.emb (ix2 p q) = (ix2 (⟨t.val * 4000 + p.val, row_lt0 t p⟩ : Fin 800000) q : S800000x64.Idx) := by
    obtain ⟨-, -, -, -, -, -, -, -, -, -, -, -, e0, e1⟩ := index0 t
    funext a; apply Fin.ext
    match a with
    | ⟨0, _⟩ => show win0_6.index t (0 : Fin 2) * 4000 + 1 * p.val = t.val * 4000 + p.val; rw [e0]; omega
    | ⟨1, _⟩ => show win0_6.index t (1 : Fin 2) * 64 + 1 * q.val = q.val; rw [e1]; omega
  show k0_pay1 (F := Ideal) (iblk0 V c 0 t) (iblk0 V c 1 t) (iblk0 V c 2 t) (iblk0 V c 3 t) (iblk0 V c 4 t) (iblk0 V c 5 t) (ix2 p q)
    = messages V c (((cfg0.win 6).blk t).view.emb (ix2 p q))
  rw [hemb]
  refine (message_payload (iblk0 V c 0 t) (iblk0 V c 1 t) (iblk0 V c 2 t) (iblk0 V c 3 t) (iblk0 V c 4 t) (iblk0 V c 5 t) p q).trans ?_
  exact msgAt_congr (iblk0 V c 0 t) (iblk0 V c 1 t) (V c main_v6 : S800000x64.Idx → EReal) (V c main_v13 : S800000x64.Idx → EReal)
    (iblk0 V c 2 t) (iblk0 V c 3 t) (iblk0 V c 4 t) (iblk0 V c 5 t)
    (V c main_v14 : S64x64.Idx → EReal) (V c main_v15 : S64x64.Idx → EReal) (V c main_v16 : S64x64.Idx → EReal) (V c main_v17 : S64x64.Idx → EReal)
    p ⟨t.val * 4000 + p.val, row_lt0 t p⟩ q
    (fun k => edge_rows V c t p k) (fun k => rel_rows V c t p k)
    (fun k => weight0 V c t k q) (fun k => weight1 V c t k q) (fun k => weight2 V c t k q) (fun k => weight3 V c t k q)

/-- An index of the result array is in point `t`'s block iff its row is among the block's 4000 rows. -/
theorem mem_block0 (t : Fin cfg0.N) (i : S800000x64.Idx) :
    i ∈ ((cfg0.win 6).blk t).view.set ↔ ∀ a : Fin 2, win0_6.index t a * S4000x64.size a ≤ (i a).val ∧ (i a).val < win0_6.index t a * S4000x64.size a + S4000x64.size a := by
  show i ∈ ((View.whole main_v18).slice (win0_6.rect t)).set ↔ _
  rw [View.set_slice_whole, Rect.mem_set_unit]
  exact Iff.rfl

/-- THE MESSAGE ARRAY after the region: every row is in the block of the point `row / 4000`. -/
theorem message_array (c : Dev nD) : (dat0 V c).arrAt 6 cfg0.N = messages V c :=
  (dat0 V c).arrAt_eq_of_cover 6 (messages V c) (fun t _ => message_block V c t) fun i => by
    have hi0 : (i 0).val < 800000 := (i 0).isLt
    have hi1 : (i 1).val < 64 := (i 1).isLt
    have hN : cfg0.N = 200 := N_0
    refine ⟨⟨(i 0).val / 4000, by rw [hN]; omega⟩, flush0_6 _, ?_⟩
    rw [mem_block0]
    obtain ⟨-, -, -, -, -, -, -, -, -, -, -, -, e0, e1⟩ := index0 ⟨(i 0).val / 4000, by rw [hN]; omega⟩
    intro a
    match a with
    | ⟨0, _⟩ =>
      show win0_6.index ⟨(i 0).val / 4000, _⟩ (0 : Fin 2) * 4000 ≤ (i 0).val ∧ (i 0).val < win0_6.index ⟨(i 0).val / 4000, _⟩ (0 : Fin 2) * 4000 + 4000
      rw [e0]; show (i 0).val / 4000 * 4000 ≤ (i 0).val ∧ (i 0).val < (i 0).val / 4000 * 4000 + 4000; omega
    | ⟨1, _⟩ =>
      show win0_6.index ⟨(i 0).val / 4000, _⟩ (1 : Fin 2) * 64 ≤ (i 1).val ∧ (i 1).val < win0_6.index ⟨(i 0).val / 4000, _⟩ (1 : Fin 2) * 64 + 64
      rw [e1]; omega

/-! ## The self-loop region -/

theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem row_lt1 (t : Fin cfg1.N) (p : Fin 5000) : t.val * 5000 + p.val < 50000 := by
  have hN : cfg1.N = 10 := N_1
  have := t.isLt; have := p.isLt; omega

/-- Point `t`'s block of the node features is their rows from `5000·t`. -/
theorem node_rows (c : Dev nD) (t : Fin cfg1.N) (p : Fin 5000) (k : Fin 64) :
    (iblk1 V c 0 t : Vec Ideal S5000x64 .f32) (ix2 p k)
      = (V c main_arg0 : S50000x64.Idx → EReal) (ix2 ⟨t.val * 5000 + p.val, row_lt1 t p⟩ k) := by
  show (V c main_arg0 : S50000x64.Idx → EReal) (((cfg1.win 0).blk t).view.emb (ix2 p k)) = _
  refine congrArg (V c main_arg0 : S50000x64.Idx → EReal) (funext fun a => Fin.ext ?_)
  obtain ⟨e0, e1, -⟩ := index1 t
  match a with
  | ⟨0, _⟩ => show win1_0.index t (0 : Fin 2) * 5000 + 1 * p.val = t.val * 5000 + p.val; rw [e0]; omega
  | ⟨1, _⟩ => show win1_0.index t (1 : Fin 2) * 64 + 1 * k.val = k.val; rw [e1]; omega

theorem loop_weight (c : Dev nD) (t : Fin cfg1.N) (k q : Fin 64) :
    (iblk1 V c 1 t : Vec Ideal S64x64 .f32) (ix2 k q) = (V c main_arg3 : S64x64.Idx → EReal) (ix2 k q) := by
  show (V c main_arg3 : S64x64.Idx → EReal) (((cfg1.win 1).blk t).view.emb (ix2 k q)) = _
  refine congrArg (V c main_arg3 : S64x64.Idx → EReal) (funext fun a => Fin.ext ?_)
  obtain ⟨-, -, e0, e1, -⟩ := index1 t
  match a with
  | ⟨0, _⟩ => show win1_1.index t (0 : Fin 2) * 64 + 1 * k.val = k.val; rw [e0]; omega
  | ⟨1, _⟩ => show win1_1.index t (1 : Fin 2) * 64 + 1 * q.val = q.val; rw [e1]; omega

/-- The self-loop array of the arrays the region finds. -/
abbrev selfLoops (c : Dev nD) : FVec Ideal S50000x64 .f32 :=
  loopArr (V c main_arg0 : S50000x64.Idx → EReal) (V c main_arg3 : S64x64.Idx → EReal)

theorem loop_block (c : Dev nD) (t : Fin cfg1.N) :
    (dat1 V c).flushed 2 t = ((cfg1.win 2).blk t).view.read (Elt Ideal) (selfLoops V c) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  funext j
  obtain ⟨p, q, rfl⟩ : ∃ (p : Fin 5000) (q : Fin 64), j = ix2 p q := ⟨j 0, j 1, eq_ix2 j⟩
  have hemb : ((cfg1.win 2).blk t).view.emb (ix2 p q) = (ix2 (⟨t.val * 5000 + p.val, row_lt1 t p⟩ : Fin 50000) q : S50000x64.Idx) := by
    obtain ⟨-, -, -, -, e0, e1⟩ := index1 t
    funext a; apply Fin.ext
    match a with
    | ⟨0, _⟩ => show win1_2.index t (0 : Fin 2) * 5000 + 1 * p.val = t.val * 5000 + p.val; rw [e0]; omega
    | ⟨1, _⟩ => show win1_2.index t (1 : Fin 2) * 64 + 1 * q.val = q.val; rw [e1]; omega
  show k1_pay1 (F := Ideal) (iblk1 V c 0 t) (iblk1 V c 1 t) (ix2 p q) = selfLoops V c (((cfg1.win 2).blk t).view.emb (ix2 p q))
  rw [hemb]
  refine (loop_payload (iblk1 V c 0 t) (iblk1 V c 1 t) p q).trans ?_
  exact loopAt_congr (iblk1 V c 0 t) (V c main_arg0 : S50000x64.Idx → EReal) (iblk1 V c 1 t) (V c main_arg3 : S64x64.Idx → EReal)
    p ⟨t.val * 5000 + p.val, row_lt1 t p⟩ q (fun k => node_rows V c t p k) (fun k => loop_weight V c t k q)

theorem mem_block1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v31).slice (win1_2.rect t)).set ↔ _
  rw [View.set_slice_whole, Rect.mem_set_unit]
  exact Iff.rfl

/-- THE SELF-LOOP ARRAY after the region. -/
theorem loop_array (c : Dev nD) : (dat1 V c).arrAt 2 cfg1.N = selfLoops V c :=
  (dat1 V c).arrAt_eq_of_cover 2 (selfLoops V c) (fun t _ => loop_block V c t) fun i => by
    have hi0 : (i 0).val < 50000 := (i 0).isLt
    have hi1 : (i 1).val < 64 := (i 1).isLt
    have hN : cfg1.N = 10 := N_1
    refine ⟨⟨(i 0).val / 5000, by rw [hN]; omega⟩, flush1_2 _, ?_⟩
    rw [mem_block1]
    obtain ⟨-, -, -, -, e0, e1⟩ := index1 ⟨(i 0).val / 5000, by rw [hN]; omega⟩
    intro a
    match a with
    | ⟨0, _⟩ =>
      show win1_2.index ⟨(i 0).val / 5000, _⟩ (0 : Fin 2) * 5000 ≤ (i 0).val ∧ (i 0).val < win1_2.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win1_2.index ⟨(i 0).val / 5000, _⟩ (1 : Fin 2) * 64 ≤ (i 1).val ∧ (i 1).val < win1_2.index ⟨(i 0).val / 5000, _⟩ (1 : Fin 2) * 64 + 64
      rw [e1]; omega

end Cert.KernelIdeal.Blocks

end
-- ==== Proof.KernelValue.lean ====
/-
  What the idealized kernel program leaves in its result buffer, as one function of its seven arguments.

  Reading the program's segments backwards from the result: the last host operation adds the mean-aggregated messages
  and the self-loop array; the self-loop region leaves the self-loop array of the node features and the loop weight;
  the host operations between the regions scatter-add the message array over the destination nodes and divide by the
  clamped in-degree; the message region leaves the message array of what the first host operations prepared — the
  gathered edge and relation features and the four 64-row blocks of the neighbour weight.
-/
import proofs.«108245_j10385230921813_1_alg».proof.Proof.Gen.KernelIdeal.Frame
import proofs.«108245_j10385230921813_1_alg».proof.Proof.Blocks
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.KernelIdeal.Blocks Cert.RelGraph

/-! ## The host operations as functions -/

/-- Row indices as the gather takes them: a negative index counted from the end (`n` added), as a column. -/
def wrapIdx (x : (⟨S800000, .i32⟩ : BufTy).Contents (Elt Ideal)) (n : BitVec 32) : (⟨S800000x1, .i32⟩ : BufTy).Contents (Elt Ideal) :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 n))) x)

/-- The source nodes' feature rows, one per edge. -/
def edgeFeat (x0 : (⟨S50000x64, .f32⟩ : BufTy).Contents (Elt Ideal)) (x4 : (⟨S800000, .i32⟩ : BufTy).Contents (Elt Ideal)) :
    (⟨S800000x64, .f32⟩ : BufTy).Contents (Elt Ideal) :=
  Host.gather gather_S50000x64_S800000x1_S800000x64_1_0_n_n_0_1_164 x0 (wrapIdx x4 50000#32)

/-- The relation types' feature rows, one per edge. -/
def relFeat (x1 : (⟨S200x64, .f32⟩ : BufTy).Contents (Elt Ideal)) (x6 : (⟨S800000, .i32⟩ : BufTy).Contents (Elt Ideal)) :
    (⟨S800000x64, .f32⟩ : BufTy).Contents (Elt Ideal) :=
  Host.gather gather_S200x64_S800000x1_S800000x64_1_0_n_n_0_1_164 x1 (wrapIdx x6 200#32)

/-- Scatter-mean to the destination nodes: the rows of `M` added up per destination, divided by the number of incoming
    edges, at least one. -/
def meanAgg (x5 : (⟨S800000, .i32⟩ : BufTy).Contents (Elt Ideal)) (M : (⟨S800000x64, .f32⟩ : BufTy).Contents (Elt Ideal)) :
    (⟨S50000x64, .f32⟩ : BufTy).Contents (Elt Ideal) :=
  Host.divf (F := Ideal)
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 x5) M)
    (broadcastInDim S50000x64 ![0, 1] bcast_S50000x1_S50000x64_0_1
      (broadcastInDim S50000x1 ![0] bcast_S50000_S50000x1_0
        (maximumf
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 x5)
            (broadcastInDim S800000 ![] bcast_S_S800000 (constant (F := Ideal) S_ .f32 0x3F800000#32)))
          (broadcastInDim S50000 ![] bcast_S_S50000 (constant (F := Ideal) S_ .f32 0x3F800000#32)))))

/-- THE RESULT as a function of the arguments. -/
def result (x0 : (⟨S50000x64, .f32⟩ : BufTy).Contents (Elt Ideal)) (x1 : (⟨S200x64, .f32⟩ : BufTy).Contents (Elt Ideal))
    (x2 : (⟨S256x64, .f32⟩ : BufTy).Contents (Elt Ideal)) (x3 : (⟨S64x64, .f32⟩ : BufTy).Contents (Elt Ideal))
    (x4 x5 x6 : (⟨S800000, .i32⟩ : BufTy).Contents (Elt Ideal)) : (⟨S50000x64, .f32⟩ : BufTy).Contents (Elt Ideal) :=
  addf
    (meanAgg x5 (msgArr (edgeFeat x0 x4) (relFeat x1 x6)
      (extractStridedSlice S64x64 ![0, 0] x2 slices_S256x64_S64x64_0_0)
      (extractStridedSlice S64x64 ![64, 0] x2 slices_S256x64_S64x64_64_0)
      (extractStridedSlice S64x64 ![128, 0] x2 slices_S256x64_S64x64_128_0)
      (extractStridedSlice S64x64 ![192, 0] x2 slices_S256x64_S64x64_192_0)))
    (loopArr x0 x3)

variable (m : (ℓ : Loc nD τ sig) → Buf (Elt Ideal) ℓ) (ρ : Dev nD → PrngReg)

/-! ## What the message region finds -/

theorem entry_edge (c : Dev nD) : (V1 m ρ c main_v6 : S800000x64.Idx → EReal)
    = edgeFeat (m ((c : Thread nD τ).loc main_arg0)) (m ((c : Thread nD τ).loc main_arg4)) := by
  show StableHlo.after hostOps0 (W0 m ρ c) (Proc.devRef .tc main_v6) = _
  after_results <;> rfl

theorem entry_rel (c : Dev nD) : (V1 m ρ c main_v13 : S800000x64.Idx → EReal)
    = relFeat (m ((c : Thread nD τ).loc main_arg1)) (m ((c : Thread nD τ).loc main_arg6)) := by
  show StableHlo.after hostOps0 (W0 m ρ c) (Proc.devRef .tc main_v13) = _
  after_results <;> rfl

theorem entry_w0 (c : Dev nD) : (V1 m ρ c main_v14 : S64x64.Idx → EReal)
    = extractStridedSlice S64x64 ![0, 0] (m ((c : Thread nD τ).loc main_arg2)) slices_S256x64_S64x64_0_0 := by
  show StableHlo.after hostOps0 (W0 m ρ c) (Proc.devRef .tc main_v14) = _
  after_results <;> rfl
theorem entry_w1 (c : Dev nD) : (V1 m ρ c main_v15 : S64x64.Idx → EReal)
    = extractStridedSlice S64x64 ![64, 0] (m ((c : Thread nD τ).loc main_arg2)) slices_S256x64_S64x64_64_0 := by
  show StableHlo.after hostOps0 (W0 m ρ c) (Proc.devRef .tc main_v15) = _
  after_results <;> rfl
theorem entry_w2 (c : Dev nD) : (V1 m ρ c main_v16 : S64x64.Idx → EReal)
    = extractStridedSlice S64x64 ![128, 0] (m ((c : Thread nD τ).loc main_arg2)) slices_S256x64_S64x64_128_0 := by
  show StableHlo.after hostOps0 (W0 m ρ c) (Proc.devRef .tc main_v16) = _
  after_results <;> rfl
theorem entry_w3 (c : Dev nD) : (V1 m ρ c main_v17 : S64x64.Idx → EReal)
    = extractStridedSlice S64x64 ![192, 0] (m ((c : Thread nD τ).loc main_arg2)) slices_S256x64_S64x64_192_0 := by
  show StableHlo.after hostOps0 (W0 m ρ c) (Proc.devRef .tc main_v17) = _
  after_results <;> rfl

/-- The message region leaves the message array of the gathered features and the weight's four row blocks. -/
theorem exit_messages (c : Dev nD) : W2 m ρ c (Proc.devRef .tc main_v18)
    = msgArr (edgeFeat (m ((c : Thread nD τ).loc main_arg0)) (m ((c : Thread nD τ).loc main_arg4)))
        (relFeat (m ((c : Thread nD τ).loc main_arg1)) (m ((c : Thread nD τ).loc main_arg6)))
        (extractStridedSlice S64x64 ![0, 0] (m ((c : Thread nD τ).loc main_arg2)) slices_S256x64_S64x64_0_0)
        (extractStridedSlice S64x64 ![64, 0] (m ((c : Thread nD τ).loc main_arg2)) slices_S256x64_S64x64_64_0)
        (extractStridedSlice S64x64 ![128, 0] (m ((c : Thread nD τ).loc main_arg2)) slices_S256x64_S64x64_128_0)
        (extractStridedSlice S64x64 ![192, 0] (m ((c : Thread nD τ).loc main_arg2)) slices_S256x64_S64x64_192_0) := by
  refine (W2_arr m ρ c 6).trans ?_
  rw [message_array (V1 m ρ) c]
  show msgArr (V1 m ρ c main_v6 : S800000x64.Idx → EReal) (V1 m ρ c main_v13 : S800000x64.Idx → EReal)
    (V1 m ρ c main_v14 : S64x64.Idx → EReal) (V1 m ρ c main_v15 : S64x64.Idx → EReal)
    (V1 m ρ c main_v16 : S64x64.Idx → EReal) (V1 m ρ c main_v17 : S64x64.Idx → EReal) = _
  rw [entry_edge, entry_rel, entry_w0, entry_w1, entry_w2, entry_w3]

/-- The destination indices reach the second host stretch as launched. -/
theorem exit_dst (c : Dev nD) : W2 m ρ c (Proc.devRef .tc main_arg5) = m ((c : Thread nD τ).loc main_arg5) := by
  have e0 : StableHlo.after hostOps0 (W0 m ρ c) (Proc.devRef .tc main_arg5) = m ((c : Thread nD τ).loc main_arg5) := by
    after_results <;> rfl
  exact (W2_of_ne m ρ c main_arg5 (by decide)).trans e0

/-! ## The host operations between the regions, and what the self-loop region finds -/

theorem mid_agg (c : Dev nD) : W3 m ρ c (Proc.devRef .tc main_v30)
    = meanAgg (W2 m ρ c (Proc.devRef .tc main_arg5)) (W2 m ρ c (Proc.devRef .tc main_v18)) := by
  show StableHlo.after hostOps1 (W2 m ρ c) (Proc.devRef .tc main_v30) = _
  after_results <;> rfl

theorem mid_feat (c : Dev nD) : (V3 m ρ c main_arg0 : S50000x64.Idx → EReal) = m ((c : Thread nD τ).loc main_arg0) := by
  have e1 : StableHlo.after hostOps1 (W2 m ρ c) (Proc.devRef .tc main_arg0) = W2 m ρ c (Proc.devRef .tc main_arg0) := by
    after_results <;> rfl
  have e0 : StableHlo.after hostOps0 (W0 m ρ c) (Proc.devRef .tc main_arg0) = m ((c : Thread nD τ).loc main_arg0) := by
    after_results <;> rfl
  exact e1.trans ((W2_of_ne m ρ c main_arg0 (by decide)).trans e0)

theorem mid_loopw (c : Dev nD) : (V3 m ρ c main_arg3 : S64x64.Idx → EReal) = m ((c : Thread nD τ).loc main_arg3) := by
  have e1 : StableHlo.after hostOps1 (W2 m ρ c) (Proc.devRef .tc main_arg3) = W2 m ρ c (Proc.devRef .tc main_arg3) := by
    after_results <;> rfl
  have e0 : StableHlo.after hostOps0 (W0 m ρ c) (Proc.devRef .tc main_arg3) = m ((c : Thread nD τ).loc main_arg3) := by
    after_results <;> rfl
  exact e1.trans ((W2_of_ne m ρ c main_arg3 (by decide)).trans e0)

/-- The self-loop region leaves the self-loop array of the node features and the loop weight. -/
theorem exit_loops (c : Dev nD) : W4 m ρ c (Proc.devRef .tc main_v31)
    = loopArr (m ((c : Thread nD τ).loc main_arg0)) (m ((c : Thread nD τ).loc main_arg3)) := by
  refine (W4_arr m ρ c 2).trans ?_
  rw [loop_array (V3 m ρ) c]
  show loopArr (V3 m ρ c main_arg0 : S50000x64.Idx → EReal) (V3 m ρ c main_arg3 : S64x64.Idx → EReal) = _
  rw [mid_feat, mid_loopw]

/-! ## The result -/

/-- The last segment boundary's contents at the result buffer: `result` of the launch contents of the arguments. -/
theorem result_eq (c : Dev nD) : W5 m ρ c (Proc.devRef .tc main_v32)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  have e : W5 m ρ c (Proc.devRef .tc main_v32)
      = (addf (F := Ideal) (s := S50000x64) (φ := FTy.f32) (W4 m ρ c (Proc.devRef .tc main_v30)) (W4 m ρ c (Proc.devRef .tc main_v31))
          : S50000x64.Idx → EReal) := by
    show StableHlo.after hostOps2 (W4 m ρ c) (Proc.devRef .tc main_v32) = _
    after_results <;> rfl
  rw [e, W4_of_ne m ρ c main_v30 (by decide), mid_agg, exit_dst, exit_messages, exit_loops]
  rfl

end Cert.KernelIdeal.Hand

end
-- ==== Proof.LibFourBlocks.lean ====
/-
  A sum over `k + k + k + k` terms as four sums over `k` terms, and a four-piece concatenation along the
  columns read at an entry.

  In any commutative additive monoid a finite sum may be cut into consecutive runs: the sum over the
  first `4k` naturals is the sum of the four sums over the runs `[0, k)`, `[k, 2k)`, `[2k, 3k)`, `[3k, 4k)`.
  A matrix with `4k` columns that is four `n × k` matrices side by side holds, at column `k·b + j` of its
  row `e`, entry `(e, j)` of piece `b`.  Together: the contraction of such a matrix with a `4k × d` matrix `W`
  is the sum of the four contractions of the pieces with the four `k × d` row blocks of `W`.
-/
import Idealize.ShloMosaic.Lib.ValueIdx
import Idealize.ShloMosaic.Lib.Pipeline.Value

noncomputable section

open scoped BigOperators

namespace Cert.LibFourBlocks

open Idealize.ShloMosaic Idealize.ShloMosaic.ValueIdx

/-- A sum over `m = k + k + k + k` consecutive terms is the sum of its four runs of `k` terms. -/
theorem sum_four_runs {M : Type*} [AddCommMonoid M] (k m : ℕ) (hm : m = k + k + k + k) (f : Fin m → M) :
    ∑ q, f q
      = ((∑ j : Fin k, f ⟨j.val, by have := j.isLt; omega⟩
          + ∑ j : Fin k, f ⟨k + j.val, by have := j.isLt; omega⟩)
          + ∑ j : Fin k, f ⟨k + k + j.val, by have := j.isLt; omega⟩)
          + ∑ j : Fin k, f ⟨k + k + k + j.val, by have := j.isLt; omega⟩ := by
  subst hm
  rw [Fin.sum_univ_add, Fin.sum_univ_add, Fin.sum_univ_add]
  rfl

variable {α : Type} {n k m : ℕ}

/-- The four pieces side by side. -/
abbrev pieces (A B C D : (⟨2, ![n, k]⟩ : Shape).Idx → α) : List ((s : Shape) × (s.Idx → α)) :=
  [⟨⟨2, ![n, k]⟩, A⟩, ⟨⟨2, ![n, k]⟩, B⟩, ⟨⟨2, ![n, k]⟩, C⟩, ⟨⟨2, ![n, k]⟩, D⟩]

/-- Column `j` of the joined matrix is column `j` of the first piece. -/
theorem concat4_apply_0 (A B C D : (⟨2, ![n, k]⟩ : Shape).Idx → α)
    (h : Shape.Concatenates ((pieces A B C D).map (·.1)) ⟨2, ![n, m]⟩ 1) (e : Fin n) (j : Fin k) (q : Fin m)
    (hq : q.val = j.val) :
    concatenate ⟨2, ![n, m]⟩ 1 (pieces A B C D) h (ix2 e q) = A (ix2 e j) :=
  concatenate_apply_piece 1 _ h (ix2 e q) 0 (show 0 < 4 by decide) _ A rfl rfl 0 rfl (ix2 e j)
    (fun b hb => by
      match b with
      | ⟨0, _⟩ => rfl
      | ⟨1, _⟩ => exact absurd rfl hb)
    (by show 0 + j.val = q.val; omega)

/-- Column `k + j` of the joined matrix is column `j` of the second piece. -/
theorem concat4_apply_1 (A B C D : (⟨2, ![n, k]⟩ : Shape).Idx → α)
    (h : Shape.Concatenates ((pieces A B C D).map (·.1)) ⟨2, ![n, m]⟩ 1) (e : Fin n) (j : Fin k) (q : Fin m)
    (hq : q.val = k + j.val) :
    concatenate ⟨2, ![n, m]⟩ 1 (pieces A B C D) h (ix2 e q) = B (ix2 e j) :=
  concatenate_apply_piece 1 _ h (ix2 e q) 1 (show 1 < 4 by decide) _ B rfl rfl k (by simp) (ix2 e j)
    (fun b hb => by
      match b with
      | ⟨0, _⟩ => rfl
      | ⟨1, _⟩ => exact absurd rfl hb)
    (by show k + j.val = q.val; omega)

/-- Column `2k + j` of the joined matrix is column `j` of the third piece. -/
theorem concat4_apply_2 (A B C D : (⟨2, ![n, k]⟩ : Shape).Idx → α)
    (h : Shape.Concatenates ((pieces A B C D).map (·.1)) ⟨2, ![n, m]⟩ 1) (e : Fin n) (j : Fin k) (q : Fin m)
    (hq : q.val = k + k + j.val) :
    concatenate ⟨2, ![n, m]⟩ 1 (pieces A B C D) h (ix2 e q) = C (ix2 e j) :=
  concatenate_apply_piece 1 _ h (ix2 e q) 2 (show 2 < 4 by decide) _ C rfl rfl (k + k) (by simp) (ix2 e j)
    (fun b hb => by
      match b with
      | ⟨0, _⟩ => rfl
      | ⟨1, _⟩ => exact absurd rfl hb)
    (by show k + k + j.val = q.val; omega)

/-- Column `3k + j` of the joined matrix is column `j` of the fourth piece. -/
theorem concat4_apply_3 (A B C D : (⟨2, ![n, k]⟩ : Shape).Idx → α)
    (h : Shape.Concatenates ((pieces A B C D).map (·.1)) ⟨2, ![n, m]⟩ 1) (e : Fin n) (j : Fin k) (q : Fin m)
    (hq : q.val = k + k + k + j.val) :
    concatenate ⟨2, ![n, m]⟩ 1 (pieces A B C D) h (ix2 e q) = D (ix2 e j) :=
  concatenate_apply_piece 1 _ h (ix2 e q) 3 (show 3 < 4 by decide) _ D rfl rfl (k + k + k) (by simp [Nat.add_assoc]) (ix2 e j)
    (fun b hb => by
      match b with
      | ⟨0, _⟩ => rfl
      | ⟨1, _⟩ => exact absurd rfl hb)
    (by show k + k + k + j.val = q.val; omega)

/-- Row `e` of the joined matrix contracted with column `c` of a `4k × d` matrix `W` is the sum of the four pieces'
    rows contracted with the four `k × d` row blocks of `W`. -/
theorem concat4_contract {d : ℕ} [AddCommMonoid α] [Mul α] (A B C D : (⟨2, ![n, k]⟩ : Shape).Idx → α)
    (h : Shape.Concatenates ((pieces A B C D).map (·.1)) ⟨2, ![n, m]⟩ 1) (hm : m = k + k + k + k)
    (W : (⟨2, ![m, d]⟩ : Shape).Idx → α) (e : Fin n) (c : Fin d) :
    ∑ q : Fin m, concatenate ⟨2, ![n, m]⟩ 1 (pieces A B C D) h (ix2 e q) * W (ix2 q c)
      = ((∑ j : Fin k, A (ix2 e j) * W (ix2 (⟨j.val, by have := j.isLt; omega⟩ : Fin m) c)
          + ∑ j : Fin k, B (ix2 e j) * W (ix2 (⟨k + j.val, by have := j.isLt; omega⟩ : Fin m) c))
          + ∑ j : Fin k, C (ix2 e j) * W (ix2 (⟨k + k + j.val, by have := j.isLt; omega⟩ : Fin m) c))
          + ∑ j : Fin k, D (ix2 e j) * W (ix2 (⟨k + k + k + j.val, by have := j.isLt; omega⟩ : Fin m) c) := by
  rw [sum_four_runs k m hm]
  congr 1
  · congr 1
    · congr 1
      · exact Finset.sum_congr rfl fun j _ => by rw [concat4_apply_0 A B C D h e j _ rfl]
      · exact Finset.sum_congr rfl fun j _ => by rw [concat4_apply_1 A B C D h e j _ rfl]
    · exact Finset.sum_congr rfl fun j _ => by rw [concat4_apply_2 A B C D h e j _ rfl]
  · exact Finset.sum_congr rfl fun j _ => by rw [concat4_apply_3 A B C D h e j _ rfl]

end Cert.LibFourBlocks

end
-- ==== Proof.RefValue.lean ====
/-
  The reference's message and self-loop arrays are the message and self-loop functions of its arguments.

  The reference joins `H + R`, `H ∘ R`, `H` and `R` side by side into a matrix of 256 columns and contracts it with
  the 256 × 64 weight matrix `W`.  A sum of 256 terms is the sum of its four runs of 64, and on the `b`-th run the
  joined matrix is its `b`-th piece while the weight rows are rows `64·b … 64·b + 63` of `W`, that is, the `b`-th
  64 × 64 row block of `W`: the contraction is the message entry with those four blocks for weight matrices.  This
  regroups a finite sum and nothing else, so it holds for all extended reals.
-/
import proofs.«108245_j10385230921813_1_alg».proof.Proof.Gen.ReferenceIdeal.Read
import proofs.«108245_j10385230921813_1_alg».proof.Proof.LibDense
import proofs.«108245_j10385230921813_1_alg».proof.Proof.LibFourBlocks
import proofs.«108245_j10385230921813_1_alg».proof.Proof.Spec
import Idealize.ShloMosaic.Lib.Pipeline.Value

noncomputable section

open scoped BigOperators

namespace Cert.RelGraph

open Idealize.ShloMosaic Idealize.ShloMosaic.ValueIdx

/-- Row `k` of the 64-row block of a 256-row matrix that starts at row `off` is row `off + k` of the matrix. -/
theorem rowBlock_apply (off : ℕ) (W : FVec Ideal ⟨2, ![256, 64]⟩ .f32)
    (h : (⟨2, ![256, 64]⟩ : Shape).Slices ![off, 0] ⟨2, ![64, 64]⟩) (k c : Fin 64) (hlt : off + k.val < 256) :
    extractStridedSlice ⟨2, ![64, 64]⟩ ![off, 0] W h (ix2 k c) = W (ix2 (⟨off + k.val, hlt⟩ : Fin 256) c) :=
  extractStridedSlice_apply ![off, 0] W h (ix2 k c) (ix2 (⟨off + k.val, hlt⟩ : Fin 256) c) fun a => by
    match a with
    | ⟨0, _⟩ => rfl
    | ⟨1, _⟩ => show c.val = 0 + c.val; omega

end Cert.RelGraph

namespace Cert.ReferenceIdeal.RefValue

open Idealize.ShloMosaic Idealize.ShloMosaic.ValueIdx
open Cert.ReferenceIdeal Cert.ReferenceIdeal.Gen Cert.ReferenceIdeal.Read Cert.RelGraph

/-- The reference's message array: the joined matrix against `W` is the message array with `W`'s four row blocks. -/
theorem messages_eq (H R : FVec Ideal S800000x64 .f32) (W : FVec Ideal S256x64 .f32)
    (h0 : S256x64.Slices ![0, 0] S64x64) (h1 : S256x64.Slices ![64, 0] S64x64)
    (h2 : S256x64.Slices ![128, 0] S64x64) (h3 : S256x64.Slices ![192, 0] S64x64) :
    Host.dotGeneral (F := Ideal) dot_S800000x256_S256x64_S800000x64_1_0_0_1_n_n none
        (concatenate S800000x256 1 [⟨S800000x64, addf H R⟩, ⟨S800000x64, mulf H R⟩, ⟨S800000x64, H⟩, ⟨S800000x64, R⟩]
          concatenates_S800000x64_S800000x64_S800000x64_S800000x64_S800000x256_d1) W
      = msgArr H R (extractStridedSlice S64x64 ![0, 0] W h0) (extractStridedSlice S64x64 ![64, 0] W h1)
          (extractStridedSlice S64x64 ![128, 0] W h2) (extractStridedSlice S64x64 ![192, 0] W h3) := by
  funext i
  obtain ⟨e, c, rfl⟩ : ∃ (e : Fin 800000) (c : Fin 64), i = ix2 e c := ⟨i 0, i 1, eq_ix2 i⟩
  rw [msgArr_apply]
  simp only [Host.dotGeneral]
  refine (Cert.LibDense.dotGeneral_apply dot_S800000x256_S256x64_S800000x64_1_0_0_1_n_n rfl rfl
    lhs_main_v17_0 lhs_main_v17_1 rhs_main_v17_0 rhs_main_v17_1 none _ _ W e c).trans ?_
  refine (Cert.LibFourBlocks.concat4_contract (addf H R) (mulf H R) H R
    concatenates_S800000x64_S800000x64_S800000x64_S800000x64_S800000x256_d1 rfl W e c).trans ?_
  unfold msgAt
  simp only [addf_apply, mulf_apply]
  congr 1
  · congr 1
    · congr 1
      · exact Finset.sum_congr rfl fun k _ => by rw [rowBlock_apply 0 W h0 k c (by have := k.isLt; omega)]; simp only [Nat.zero_add]
      · exact Finset.sum_congr rfl fun k _ => by rw [rowBlock_apply 64 W h1 k c (by have := k.isLt; omega)]
    · exact Finset.sum_congr rfl fun k _ => by rw [rowBlock_apply 128 W h2 k c (by have := k.isLt; omega)]
  · exact Finset.sum_congr rfl fun k _ => by rw [rowBlock_apply 192 W h3 k c (by have := k.isLt; omega)]

/-- The reference's self-loop array. -/
theorem selfLoops_eq (X : FVec Ideal S50000x64 .f32) (W : FVec Ideal S64x64 .f32) :
    Host.dotGeneral (F := Ideal) dot_S50000x64_S64x64_S50000x64_1_0_0_1_n_n none X W = loopArr X W := by
  funext i
  obtain ⟨e, c, rfl⟩ : ∃ (e : Fin 50000) (c : Fin 64), i = ix2 e c := ⟨i 0, i 1, eq_ix2 i⟩
  rw [loopArr_apply]
  simp only [Host.dotGeneral]
  exact Cert.LibDense.dotGeneral_apply dot_S50000x64_S64x64_S50000x64_1_0_0_1_n_n rfl rfl
    lhs_main_v30_0 lhs_main_v30_1 rhs_main_v30_0 rhs_main_v30_1 none _ X W e c

end Cert.ReferenceIdeal.RefValue

end
-- ==== Proof.lean ====
/-
  A relational graph convolution with mean aggregation: the kernel program against its reference, over the extended
  reals.

  Both programs gather, for each of 800000 edges, the source node's 64 features `H` and the relation type's 64 features
  `R`, form one message row per edge, scatter-add the messages over the destination nodes, divide by the clamped
  in-degree, and add the self-loop term `feat · loop_weight`.  They differ in two dense steps only.

  * The message.  The reference joins `H + R`, `H ∘ R`, `H`, `R` into 256 columns and contracts them with the 256 × 64
    weight `W`.  The kernel cuts `W` into its four 64-row blocks, multiplies `H + R`, `H ∘ R`, `H`, `R` each with its
    block on the matrix unit, 4000 edges at a time, and adds the four products.  A sum of 256 terms is the sum of its
    four runs of 64 terms, so both are the same number at every entry.  Regrouping a finite sum needs no finiteness:
    the precondition is never opened.
  * The self-loop.  One product on the host against ten row blocks of 5000 nodes on the matrix unit: the same sum of 64
    terms at every entry.

  Rounding to a shorter number format on the way into the matrix unit is the identity on exact values.  Everything
  else — the gathers, the scatter-adds, the division, the final addition — is the same function applied to equal arrays.
-/
import proofs.«108245_j10385230921813_1_alg».proof.Defs
import proofs.«108245_j10385230921813_1_alg».proof.Proof.Gen.Kernel
import proofs.«108245_j10385230921813_1_alg».proof.Proof.Gen.Kernel.Frame
import proofs.«108245_j10385230921813_1_alg».proof.Proof.Gen.KernelIdeal
import proofs.«108245_j10385230921813_1_alg».proof.Proof.Gen.KernelIdeal.Frame
import proofs.«108245_j10385230921813_1_alg».proof.Proof.Gen.ReferenceIdeal
import proofs.«108245_j10385230921813_1_alg».proof.Proof.Gen.Pre_finite_inputs
import proofs.«108245_j10385230921813_1_alg».proof.Proof.Gen.ReferenceIdeal.Run
import proofs.«108245_j10385230921813_1_alg».proof.Proof.Gen.ReferenceIdeal.Read
import proofs.«108245_j10385230921813_1_alg».proof.Proof.KernelRun
import proofs.«108245_j10385230921813_1_alg».proof.Proof.KernelValue
import proofs.«108245_j10385230921813_1_alg».proof.Proof.RefValue
import Idealize.ShloMosaic.Adequacy
import Idealize.ShloMosaic.Init

set_option maxRecDepth 16384

noncomputable section

namespace Cert.Proof

open Idealize.ShloMosaic Idealize.SL.Sem

/-! ## The reference's result is the kernel's function of the arguments -/

/-- The reference's last stage, as a function of the seven arguments, is the kernel's result function: its joined
    contraction is the message array with the weight's four row blocks, its host product the self-loop array, and the
    operations around them are the kernel program's own. -/
theorem reference_value (x0 : (⟨Cert.ReferenceIdeal.S50000x64, .f32⟩ : BufTy).Contents (Elt Ideal))
    (x1 : (⟨Cert.ReferenceIdeal.S200x64, .f32⟩ : BufTy).Contents (Elt Ideal))
    (x2 : (⟨Cert.ReferenceIdeal.S256x64, .f32⟩ : BufTy).Contents (Elt Ideal))
    (x3 : (⟨Cert.ReferenceIdeal.S64x64, .f32⟩ : BufTy).Contents (Elt Ideal))
    (x4 x5 x6 : (⟨Cert.ReferenceIdeal.S800000, .i32⟩ : BufTy).Contents (Elt Ideal)) :
    Cert.ReferenceIdeal.Read.val_main_v31 (F := Ideal) x0 x1 x2 x3 x4 x5 x6
      = Cert.KernelIdeal.Hand.result x0 x1 x2 x3 x4 x5 x6 := by
  unfold Cert.ReferenceIdeal.Read.val_main_v31 Cert.ReferenceIdeal.Read.val_main_v29 Cert.ReferenceIdeal.Read.val_main_v30
    Cert.ReferenceIdeal.Read.val_main_v20 Cert.ReferenceIdeal.Read.val_main_v17 Cert.ReferenceIdeal.Read.val_main_v16
    Cert.ReferenceIdeal.Read.val_main_v14 Cert.ReferenceIdeal.Read.val_main_v15
  rw [Cert.ReferenceIdeal.RefValue.messages_eq (Cert.ReferenceIdeal.Read.val_main_v6 (F := Ideal) x0 x4)
      (Cert.ReferenceIdeal.Read.val_main_v13 (F := Ideal) x1 x6) x2
      Cert.KernelIdeal.Facts₀.slices_S256x64_S64x64_0_0 Cert.KernelIdeal.Facts₀.slices_S256x64_S64x64_64_0
      Cert.KernelIdeal.Facts₀.slices_S256x64_S64x64_128_0 Cert.KernelIdeal.Facts₀.slices_S256x64_S64x64_192_0,
    Cert.ReferenceIdeal.RefValue.selfLoops_eq x0 x3]
  rfl

/-! ## The claims -/

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the kernel's result function of the (agreeing) arguments in their result buffers. -/
theorem algebraic : Cert.algebraic_KernelIdeal_ReferenceIdeal := by
  intro m ρ m' ρ' _ hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [a0, a1, a2, a3, a4, a5, a6]
    exact (Cert.ReferenceIdeal.Read.val_main_v31_eq _ _ _ _ _ _ _).trans (reference_value _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
